-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S1600000 : Shape := ⟨1, ![1600000]⟩
abbrev S64x32 : Shape := ⟨2, ![64, 32]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1x64 .f32) (main_arg6 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S1x64 .f32 := Host.absf main_arg5
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x32 .f32) (main_arg1 : IVec S2x1600000 32) (main_arg2 : FVec F S1600000 .f32) (main_arg3 : FVec F S64x32 .f32) (main_arg4 : FVec F S64 .f32) (main_arg5 : FVec F S1x64 .f32) (main_arg6 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x32 .f32 := Host.absf main_arg3
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x32 : Shape := ⟨2, ![100000, 32]⟩
abbrev S2x1600000 : Shape := ⟨2, ![2, 1600000]⟩
abbrev S1600000 : Shape := ⟨1, ![1600000]⟩
abbrev S64x32 : Shape := ⟨2, ![64, 32]⟩
abbrev S64 : Shape := ⟨1, ![64]⟩
abbrev S1x64 : Shape := ⟨2, ![1, 64]⟩
abbrev S1 : Shape := ⟨1, ![1]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x32 : Shape := ⟨2, ![1700000, 32]⟩
abbrev S32x64 : Shape := ⟨2, ![32, 64]⟩
abbrev S64x1 : Shape := ⟨2, ![64, 1]⟩
abbrev S100000x1 : Shape := ⟨2, ![100000, 1]⟩
abbrev S10000x32 : Shape := ⟨2, ![10000, 32]⟩
abbrev S10000x1 : Shape := ⟨2, ![10000, 1]⟩
abbrev S10000x64 : Shape := ⟨2, ![10000, 64]⟩
abbrev S1x1 : Shape := ⟨2, ![1, 1]⟩

abbrev nBuf : Space → Nat
  | .hbm => 63
  | .vmem => 8
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S1600000, .f32⟩
  | .hbm, ⟨3, _⟩ => ⟨S64x32, .f32⟩
  | .hbm, ⟨4, _⟩ => ⟨S64, .f32⟩
  | .hbm, ⟨5, _⟩ => ⟨S1x64, .f32⟩
  | .hbm, ⟨6, _⟩ => ⟨S1, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1700000, .i32⟩
  | .hbm, ⟨26, _⟩ => ⟨S1700000, .i1⟩
  | .hbm, ⟨27, _⟩ => ⟨S_, .i32⟩
  | .hbm, ⟨28, _⟩ => ⟨S1700000, .i32⟩
  | .hbm, ⟨29, _⟩ => ⟨S1700000, .i32⟩
  | .hbm, ⟨30, _⟩ => ⟨S1700000, .i32⟩
  | .hbm, ⟨31, _⟩ => ⟨S1700000x1, .i32⟩
  | .hbm, ⟨32, _⟩ => ⟨S1700000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S1700000, .f32⟩
  | .hbm, ⟨43, _⟩ => ⟨S1700000, .f32⟩
  | .hbm, ⟨44, _⟩ => ⟨S1700000x1, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x32, .f32⟩
  | .hbm, ⟨54, _⟩ => ⟨S1700000x32, .f32⟩
  | .hbm, ⟨55, _⟩ => ⟨S1700000x32, .f32⟩
  | .hbm, ⟨56, _⟩ => ⟨S_, .f32⟩
  | .hbm, ⟨57, _⟩ => ⟨S100000x32, .f32⟩
  | .hbm, ⟨58, _⟩ => ⟨S1700000x1, .i32⟩
  | .hbm, ⟨59, _⟩ => ⟨S100000x32, .f32⟩
  | .hbm, ⟨60, _⟩ => ⟨S32x64, .f32⟩
  | .hbm, ⟨61, _⟩ => ⟨S64x1, .f32⟩
  | .hbm, ⟨62, _⟩ => ⟨S100000x1, .f32⟩
  | .local _ .vmem, ⟨0, _⟩ => ⟨S10000x32, .f32⟩
  | .local _ .vmem, ⟨1, _⟩ => ⟨S10000x32, .f32⟩
  | .local _ .vmem, ⟨2, _⟩ => ⟨S32x64, .f32⟩
  | .local _ .vmem, ⟨3, _⟩ => ⟨S64, .f32⟩
  | .local _ .vmem, ⟨4, _⟩ => ⟨S64x1, .f32⟩
  | .local _ .vmem, ⟨5, _⟩ => ⟨S1, .f32⟩
  | .local _ .vmem, ⟨6, _⟩ => ⟨S10000x1, .f32⟩
  | .local _ .vmem, ⟨7, _⟩ => ⟨S10000x1, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  transposes_S64x32_S32x64_1_0 : S64x32.Transposes [1, 0] S32x64
  transposes_S1x64_S64x1_1_0 : S1x64.Transposes [1, 0] S64x1
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1_S1_0 : ∀ a, (![0] : Fin 1 → Nat) a + S1.size a ≤ S1.size a
  h_S1 : 0 < S1.numel
  shapeCasts_S1_S1x1 : S1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S10000x32_S32x64_S10000x64_1_0_0_1_n_n_wf : DotDims.WF S10000x32 S32x64 S10000x64 [1] [0] [0] [1] [] []
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x1.size a ≤ S100000x1.size a
  hwx0_5 : ∀ i : grid0.Coords, EltTy.bits .f32 = 32 ∨ (Rect.block (s := S100000x1) S10000x1.size (cc0_transform_5 i) (hinb0_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_v42) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v44) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v45) S10000x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S1600000 : Shape := ⟨1, ![1600000]⟩
abbrev S64x32 : Shape := ⟨2, ![64, 32]⟩
abbrev S64 : Shape := ⟨1, ![64]⟩
abbrev S1x64 : Shape := ⟨2, ![1, 64]⟩
abbrev S1 : Shape := ⟨1, ![1]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x32 : Shape := ⟨2, ![1700000, 32]⟩
abbrev S32x64 : Shape := ⟨2, ![32, 64]⟩
abbrev S100000x64 : Shape := ⟨2, ![100000, 64]⟩
abbrev S64x1 : Shape := ⟨2, ![64, 1]⟩
abbrev S100000x1 : Shape := ⟨2, ![100000, 1]⟩
abbrev S1x1 : Shape := ⟨2, ![1, 1]⟩

abbrev nBuf : Space → Nat
  | .hbm => 79
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S1600000, .f32⟩
  | .hbm, ⟨3, _⟩ => ⟨S64x32, .f32⟩
  | .hbm, ⟨4, _⟩ => ⟨S64, .f32⟩
  | .hbm, ⟨5, _⟩ => ⟨S1x64, .f32⟩
  | .hbm, ⟨6, _⟩ => ⟨S1, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1700000, .i32⟩
  | .hbm, ⟨26, _⟩ => ⟨S1700000, .i1⟩
  | .hbm, ⟨27, _⟩ => ⟨S_, .i32⟩
  | .hbm, ⟨28, _⟩ => ⟨S1700000, .i32⟩
  | .hbm, ⟨29, _⟩ => ⟨S1700000, .i32⟩
  | .hbm, ⟨30, _⟩ => ⟨S1700000, .i32⟩
  | .hbm, ⟨31, _⟩ => ⟨S1700000x1, .i32⟩
  | .hbm, ⟨32, _⟩ => ⟨S1700000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S1700000, .f32⟩
  | .hbm, ⟨43, _⟩ => ⟨S1700000, .f32⟩
  | .hbm, ⟨44, _⟩ => ⟨S1700000x1, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x32, .f32⟩
  | .hbm, ⟨54, _⟩ => ⟨S1700000x32, .f32⟩
  | .hbm, ⟨55, _⟩ => ⟨S1700000x32, .f32⟩
  | .hbm, ⟨56, _⟩ => ⟨S_, .f32⟩
  | .hbm, ⟨57, _⟩ => ⟨S100000x32, .f32⟩
  | .hbm, ⟨58, _⟩ => ⟨S1700000x1, .i32⟩
  | .hbm, ⟨59, _⟩ => ⟨S100000x32, .f32⟩
  | .hbm, ⟨60, _⟩ => ⟨S32x64, .f32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S100000x64, .f32⟩
  | .hbm, ⟨66, _⟩ => ⟨S64x1, .f32⟩
  | .hbm, ⟨67, _⟩ => ⟨S100000x1, .f32⟩
  | .hbm, ⟨68, _⟩ => ⟨S1x1, .f32⟩
  | .hbm, ⟨69, _⟩ => ⟨S100000x1, .f32⟩
  | .hbm, ⟨70, _⟩ => ⟨S100000x1, .f32⟩
  | .hbm, ⟨71, _⟩ => ⟨S100000x1, .f32⟩
  | .hbm, ⟨72, _⟩ => ⟨S100000x1, .f32⟩
  | .hbm, ⟨73, _⟩ => ⟨S_, .f32⟩
  | .hbm, ⟨74, _⟩ => ⟨S100000x1, .f32⟩
  | .hbm, ⟨75, _⟩ => ⟨S100000x1, .f32⟩
  | .hbm, ⟨76, _⟩ => ⟨S_, .f32⟩
  | .hbm, ⟨77, _⟩ => ⟨S100000x1, .f32⟩
  | .hbm, ⟨78, _⟩ => ⟨S100000x1, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_8 : Ref sig .tc := ⟨.hbm, 73, rfl⟩
abbrev main_v56 : Ref sig .tc := ⟨.hbm, 74, rfl⟩
abbrev main_v57 : Ref sig .tc := ⟨.hbm, 75, rfl⟩
abbrev main_cst_9 : Ref sig .tc := ⟨.hbm, 76, rfl⟩
abbrev main_v58 : Ref sig .tc := ⟨.hbm, 77, rfl⟩
abbrev main_v59 : Ref sig .tc := ⟨.hbm, 78, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  transposes_S64x32_S32x64_1_0 : S64x32.Transposes [1, 0] S32x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S1x64_S64x1_1_0 : S1x64.Transposes [1, 0] S64x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x64_S100000x64_1_0_0_1_n_n_wf : DotDims.WF S100000x32 S32x64 S100000x64 [1] [0] [0] [1] [] []
  dot_S100000x64_S64x1_S100000x1_1_0_0_1_n_n_wf : DotDims.WF S100000x64 S64x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.DenseLayers.lean ====
/-
  The two dense layers that follow the graph aggregation, as one function over the extended reals.

  A node's aggregated feature row `a ∈ EReal^32` is sent to
      σ( Σ_j tanh( Σ_k a_k · W1ᵀ[k, j] + b1[j] ) · W2ᵀ[j, 0] + b2[0] ),
  with `W1ᵀ ∈ EReal^{32×64}`, `b1 ∈ EReal^64`, `W2ᵀ ∈ EReal^{64×1}`, `b2 ∈ EReal^1` and σ the logistic function
  `x ↦ 1 / (1 + e^{-x})` extended to ±∞ (`Ideal.logistic`). The layer over `n` nodes applies this row by row: entry
  `(r, 0)` of the result depends on row `r` of the aggregated features only. No law beyond the definitions is
  needed to recognise this function in either program, so nothing here assumes that an entry is finite.
-/
import Idealize.ShloMosaic.PureOps.Ideal
import Idealize.ShloMosaic.Lib.ValueIdx

noncomputable section

namespace Cert.Dense

open Idealize.ShloMosaic Idealize.ShloMosaic.ValueIdx

/-- Hidden unit `j` of a node: `tanh` of the row's product with column `j` of `W1ᵀ` plus the bias. -/
def hiddenUnit (row : Fin 32 → EReal) (w1t : FVec Ideal ⟨2, ![32, 64]⟩ .f32) (b1 : FVec Ideal ⟨1, ![64]⟩ .f32)
    (j : Fin 64) : EReal :=
  Ideal.tanh ((∑ k : Fin 32, row k * w1t (ix2 k j)) + b1 (ix1 j))

/-- A node's output: the logistic function of the hidden units' product with the one column of `W2ᵀ` plus the bias. -/
def nodeScore (row : Fin 32 → EReal) (w1t : FVec Ideal ⟨2, ![32, 64]⟩ .f32) (b1 : FVec Ideal ⟨1, ![64]⟩ .f32)
    (w2t : FVec Ideal ⟨2, ![64, 1]⟩ .f32) (b2 : FVec Ideal ⟨1, ![1]⟩ .f32) : EReal :=
  Ideal.logistic ((∑ j : Fin 64, hiddenUnit row w1t b1 j * w2t (ix2 j (0 : Fin 1))) + b2 (ix1 (0 : Fin 1)))

/-- The layer over `n` nodes: entry `(r, 0)` is the output of the node whose features are row `r` of `a`. -/
def layer {n : Nat} (a : FVec Ideal ⟨2, ![n, 32]⟩ .f32) (w1t : FVec Ideal ⟨2, ![32, 64]⟩ .f32)
    (b1 : FVec Ideal ⟨1, ![64]⟩ .f32) (w2t : FVec Ideal ⟨2, ![64, 1]⟩ .f32) (b2 : FVec Ideal ⟨1, ![1]⟩ .f32) :
    FVec Ideal ⟨2, ![n, 1]⟩ .f32 :=
  fun i => nodeScore (fun k => a (ix2 (n0 := n) (i 0) k)) w1t b1 w2t b2

/-- The layer at an index written by its coordinates. -/
theorem layer_apply {n : Nat} (a : FVec Ideal ⟨2, ![n, 32]⟩ .f32) (w1t : FVec Ideal ⟨2, ![32, 64]⟩ .f32)
    (b1 : FVec Ideal ⟨1, ![64]⟩ .f32) (w2t : FVec Ideal ⟨2, ![64, 1]⟩ .f32) (b2 : FVec Ideal ⟨1, ![1]⟩ .f32)
    (r : Fin n) (u : Fin 1) :
    layer a w1t b1 w2t b2 (ix2 r u) = nodeScore (fun k => a (ix2 r k)) w1t b1 w2t b2 := rfl

end Cert.Dense

end
-- ==== Proof.ReferenceLayer.lean ====
/-
  The reference's result is the dense layers of its aggregated features.

  After the scatter-add that forms the aggregated features `A` (stage 42), the reference computes
  `A · W1ᵀ + b1`, `tanh`, the product with `W2ᵀ`, `+ b2`, and then `1 / (1 + exp(-x))` spelt with the host's negate,
  exponential, add and divide. Read at an index `(r, u)` this is `Dense.nodeScore` of row `r` of `A`: the two
  `dot_general`s are the two sums, the two bias broadcasts read `b1[j]` and `b2[0]`, and the quotient
  `1 / (1 + e^{-x})` is the logistic function by its definition on the extended reals.
-/
import proofs.«122780_j91250875171104_2_alg».proof.Proof.Gen.ReferenceIdeal.Read
import proofs.«122780_j91250875171104_2_alg».proof.Proof.DenseLayers
import Idealize.ShloMosaic.Lib.IdealHost

noncomputable section

namespace Cert.ReferenceIdeal.Layer

open Cert.ReferenceIdeal Cert.ReferenceIdeal.Read Idealize.ShloMosaic Idealize.ShloMosaic.ValueIdx

/-! ## Which entries each operation reads -/

/-- The operand indices of the second product at output index `(r, u)` and contraction index `j`: `(r, j)` and `(j, 0)`. -/
theorem lidx50 (r : Fin 100000) (u : Fin 1) (j : Fin 64) : lidx_main_v50 (ix2 r u) j = ix2 r j :=
  funext fun a => Fin.ext (by match a with | ⟨0, _⟩ => rfl | ⟨1, _⟩ => rfl)

theorem ridx50 (r : Fin 100000) (u : Fin 1) (j : Fin 64) : ridx_main_v50 (ix2 r u) j = ix2 j (0 : Fin 1) :=
  funext fun a => Fin.ext (by
    match a with
    | ⟨0, _⟩ => rfl
    | ⟨1, _⟩ => have h : u.val < 1 := u.isLt; show u.val = 0; omega)

/-- The operand indices of the first product at output index `(r, j)` and contraction index `k`: `(r, k)` and `(k, j)`. -/
theorem lidx44 (r : Fin 100000) (j : Fin 64) (k : Fin 32) : lidx_main_v44 (ix2 r j) k = ix2 r k :=
  funext fun a => Fin.ext (by match a with | ⟨0, _⟩ => rfl | ⟨1, _⟩ => rfl)

theorem ridx44 (r : Fin 100000) (j : Fin 64) (k : Fin 32) : ridx_main_v44 (ix2 r j) k = ix2 k j :=
  funext fun a => Fin.ext (by match a with | ⟨0, _⟩ => rfl | ⟨1, _⟩ => rfl)

/-- The first bias, broadcast over the rows, reads `b1[j]` at `(r, j)`. -/
theorem idx4546 (r : Fin 100000) (j : Fin 64) : idx_main_v45 (idx_main_v46 (ix2 r j)) = ix1 j :=
  funext fun a => Fin.ext (by match a with | ⟨0, _⟩ => rfl)

/-- The second bias, broadcast over the rows, reads `b2[0]` everywhere. -/
theorem idx5152 (r : Fin 100000) (u : Fin 1) : idx_main_v51 (idx_main_v52 (ix2 r u)) = ix1 (0 : Fin 1) :=
  funext fun a => Fin.ext (by match a with | ⟨0, _⟩ => rfl)

/-! ## The logistic function spelt out -/

/-- `1 / (1 + e^{-z})` with the host's divide, add, exponential and negate, the two ones the f32 pattern of 1.0, is
    the logistic function at every extended real `z`: that is how the function is defined there. -/
theorem logistic_spelt (z : Ideal .f32) :
    FloatOps.hostDivf (FloatOps.ofBits .f32 0x3F800000#32 : Ideal .f32)
      (FloatOps.addf (FloatOps.ofBits .f32 0x3F800000#32) (FloatOps.hostUnary .exp (FloatOps.hostNegf z))) = Ideal.logistic z := by
  show Ideal.div (Ideal.ofBits .f32 0x3F800000#32) (Ideal.ofBits .f32 0x3F800000#32 + Ideal.exp (-z)) = Ideal.div 1 (1 + Ideal.exp (-z))
  rw [Ideal.ofBits_one_f32]

/-! ## The hidden units and the result -/

section
variable (x0 : (⟨S100000x32, .f32⟩ : BufTy).Contents (Elt Ideal)) (x1 : (⟨S2x1600000, .i32⟩ : BufTy).Contents (Elt Ideal))
  (x2 : (⟨S1600000, .f32⟩ : BufTy).Contents (Elt Ideal)) (x3 : (⟨S64x32, .f32⟩ : BufTy).Contents (Elt Ideal))
  (x4 : (⟨S64, .f32⟩ : BufTy).Contents (Elt Ideal)) (x5 : (⟨S1x64, .f32⟩ : BufTy).Contents (Elt Ideal))
  (x6 : (⟨S1, .f32⟩ : BufTy).Contents (Elt Ideal))

/-- Stage 48 (the hidden activations) at `(r, j)` is hidden unit `j` of row `r` of the aggregated features. -/
theorem hidden_at (r : Fin 100000) (j : Fin 64) :
    val_main_v48 (F := Ideal) x0 x1 x2 x3 x4 (ix2 r j)
      = Dense.hiddenUnit (fun k => val_main_v42 (F := Ideal) x0 x1 x2 (ix2 r k)) (val_main_v43 (F := Ideal) x3) x4 j := by
  rw [val_main_v48_apply, val_main_v47_apply, val_main_v44_apply, val_main_v46_apply, val_main_v45_apply, idx4546,
    Ideal.hostUnary_tanh_def, Ideal.addf_def]
  unfold Dense.hiddenUnit
  refine congrArg (fun s => Ideal.tanh (s + x4 (ix1 j))) (Finset.sum_congr rfl fun k _ => ?_)
  rw [lidx44, ridx44]

/-- THE REFERENCE'S RESULT, as a function of the seven arguments, is the dense layers of its aggregated features
    (stage 42), the transposed weights (stages 43 and 49) and the two biases. -/
theorem result_eq_layer :
    val_main_v59 (F := Ideal) x0 x1 x2 x3 x4 x5 x6
      = Dense.layer (val_main_v42 (F := Ideal) x0 x1 x2) (val_main_v43 (F := Ideal) x3) x4 (val_main_v49 (F := Ideal) x5) x6 := by
  funext i
  obtain ⟨r, u, rfl⟩ : ∃ (r : Fin 100000) (u : Fin 1), i = ix2 r u := ⟨i 0, i 1, eq_ix2 i⟩
  rw [val_main_v59_apply, val_main_v58_apply, val_main_cst_9_apply, val_main_v57_apply, val_main_v56_apply,
    val_main_cst_8_apply, val_main_v55_apply, val_main_v54_apply, logistic_spelt, val_main_v53_apply, val_main_v50_apply,
    val_main_v52_apply, val_main_v51_apply, idx5152, Ideal.addf_def, Dense.layer_apply]
  unfold Dense.nodeScore
  refine congrArg (fun s => Ideal.logistic (s + x6 (ix1 (0 : Fin 1)))) (Finset.sum_congr rfl fun j _ => ?_)
  rw [lidx50, ridx50, hidden_at]

end

end Cert.ReferenceIdeal.Layer

end
-- ==== Proof.KernelPayload.lean ====
/-
  The kernel body's stored value at an index.

  At one grid point the body loads a block `x` of 10000 aggregated feature rows and the whole of `W1ᵀ`, `b1`, `W2ᵀ`,
  `b2`, and stores `σ(tanh(x · W1ᵀ + b1) · W2ᵀ + b2)`; the roundings to bf16 on the way into the two matrix units are
  the identity on the extended reals. Read at `(p, q)`: each matrix product into a zero accumulator is the sum over
  its contracted axis, each bias (a vector given a leading unit axis and repeated over the rows) is read at its column,
  `tanh` and σ act entry by entry. So the stored value at `(p, q)` is `Dense.nodeScore` of row `p` of the block.
-/
import proofs.«122780_j91250875171104_2_alg».proof.Proof.Gen.KernelIdeal.Skeleton
import proofs.«122780_j91250875171104_2_alg».proof.Proof.DenseLayers
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The two matrix products as sums -/

theorem hidden_lhs0 (i : S10000x64.Idx) (q : dot_S10000x32_S32x64_S10000x64_1_0_0_1_n_n.contr.Idx) :
    (dot_S10000x32_S32x64_S10000x64_1_0_0_1_n_n.lhsIdx i q 0).val = (i 0).val := by
  unfold DotDims.lhsIdx
  rw [dif_neg (show ¬(0 : Fin S10000x32.rank) ∈ dot_S10000x32_S32x64_S10000x64_1_0_0_1_n_n.lhsBatch by decide), dif_pos (show (0 : Fin S10000x32.rank) ∈ dot_S10000x32_S32x64_S10000x64_1_0_0_1_n_n.lhsNonContracting by decide)]
  rfl

theorem hidden_rhs1 (i : S10000x64.Idx) (q : dot_S10000x32_S32x64_S10000x64_1_0_0_1_n_n.contr.Idx) :
    (dot_S10000x32_S32x64_S10000x64_1_0_0_1_n_n.rhsIdx i q 1).val = (i 1).val := by
  unfold DotDims.rhsIdx
  rw [dif_neg (show ¬(1 : Fin S32x64.rank) ∈ dot_S10000x32_S32x64_S10000x64_1_0_0_1_n_n.rhsBatch by decide), dif_pos (show (1 : Fin S32x64.rank) ∈ dot_S10000x32_S32x64_S10000x64_1_0_0_1_n_n.rhsNonContracting by decide)]
  rfl

/-- The first product at `(p, j)`: row `p` of the block against column `j` of `W1ᵀ`, summed over the 32 features. -/
theorem hidden_product (x : FVec Ideal S10000x32 .bf16) (w : FVec Ideal S32x64 .bf16) (p : Fin 10000) (c : Fin 64) :
    matmul dot_S10000x32_S32x64_S10000x64_1_0_0_1_n_n none x w (constant (F := Ideal) S10000x64 .f32 0x00000000#32) (ix2 p c)
      = ∑ k : Fin 32, x (ix2 p k) * w (ix2 k c) := by
  simp only [matmul]
  rw [Ideal.matmul_constant_zero_apply, ← Equiv.sum_comp (contrEquiv1 dot_S10000x32_S32x64_S10000x64_1_0_0_1_n_n 32 rfl rfl).symm]
  refine Finset.sum_congr rfl fun k _ => ?_
  have hk := contrEquiv1_symm_val dot_S10000x32_S32x64_S10000x64_1_0_0_1_n_n 32 rfl rfl k
  have el : dot_S10000x32_S32x64_S10000x64_1_0_0_1_n_n.lhsIdx (ix2 p c) ((contrEquiv1 dot_S10000x32_S32x64_S10000x64_1_0_0_1_n_n 32 rfl rfl).symm k) = ix2 p k := funext fun a => Fin.ext (by
    match a with
    | ⟨0, _⟩ => exact hidden_lhs0 _ _
    | ⟨1, _⟩ => exact (dot_S10000x32_S32x64_S10000x64_1_0_0_1_n_n.lhsIdx_val_of_single rfl _ _).trans hk)
  have er : dot_S10000x32_S32x64_S10000x64_1_0_0_1_n_n.rhsIdx (ix2 p c) ((contrEquiv1 dot_S10000x32_S32x64_S10000x64_1_0_0_1_n_n 32 rfl rfl).symm k) = ix2 k c := funext fun a => Fin.ext (by
    match a with
    | ⟨0, _⟩ => exact (dot_S10000x32_S32x64_S10000x64_1_0_0_1_n_n.rhsIdx_val_of_single rfl _ _).trans hk
    | ⟨1, _⟩ => exact hidden_rhs1 _ _)
  rw [el, er]

theorem output_lhs0 (i : S10000x1.Idx) (q : dot_S10000x64_S64x1_S10000x1_1_0_0_1_n_n.contr.Idx) :
    (dot_S10000x64_S64x1_S10000x1_1_0_0_1_n_n.lhsIdx i q 0).val = (i 0).val := by
  unfold DotDims.lhsIdx
  rw [dif_neg (show ¬(0 : Fin S10000x64.rank) ∈ dot_S10000x64_S64x1_S10000x1_1_0_0_1_n_n.lhsBatch by decide), dif_pos (show (0 : Fin S10000x64.rank) ∈ dot_S10000x64_S64x1_S10000x1_1_0_0_1_n_n.lhsNonContracting by decide)]
  rfl

theorem output_rhs1 (i : S10000x1.Idx) (q : dot_S10000x64_S64x1_S10000x1_1_0_0_1_n_n.contr.Idx) :
    (dot_S10000x64_S64x1_S10000x1_1_0_0_1_n_n.rhsIdx i q 1).val = (i 1).val := by
  unfold DotDims.rhsIdx
  rw [dif_neg (show ¬(1 : Fin S64x1.rank) ∈ dot_S10000x64_S64x1_S10000x1_1_0_0_1_n_n.rhsBatch by decide), dif_pos (show (1 : Fin S64x1.rank) ∈ dot_S10000x64_S64x1_S10000x1_1_0_0_1_n_n.rhsNonContracting by decide)]
  rfl

/-- The second product at `(p, q)`: row `p` of the hidden units against the one column of `W2ᵀ`, summed over the 64 units. -/
theorem output_product (x : FVec Ideal S10000x64 .bf16) (w : FVec Ideal S64x1 .bf16) (p : Fin 10000) (c : Fin 1) :
    matmul dot_S10000x64_S64x1_S10000x1_1_0_0_1_n_n none x w (constant (F := Ideal) S10000x1 .f32 0x00000000#32) (ix2 p c)
      = ∑ k : Fin 64, x (ix2 p k) * w (ix2 k c) := by
  simp only [matmul]
  rw [Ideal.matmul_constant_zero_apply, ← Equiv.sum_comp (contrEquiv1 dot_S10000x64_S64x1_S10000x1_1_0_0_1_n_n 64 rfl rfl).symm]
  refine Finset.sum_congr rfl fun k _ => ?_
  have hk := contrEquiv1_symm_val dot_S10000x64_S64x1_S10000x1_1_0_0_1_n_n 64 rfl rfl k
  have el : dot_S10000x64_S64x1_S10000x1_1_0_0_1_n_n.lhsIdx (ix2 p c) ((contrEquiv1 dot_S10000x64_S64x1_S10000x1_1_0_0_1_n_n 64 rfl rfl).symm k) = ix2 p k := funext fun a => Fin.ext (by
    match a with
    | ⟨0, _⟩ => exact output_lhs0 _ _
    | ⟨1, _⟩ => exact (dot_S10000x64_S64x1_S10000x1_1_0_0_1_n_n.lhsIdx_val_of_single rfl _ _).trans hk)
  have er : dot_S10000x64_S64x1_S10000x1_1_0_0_1_n_n.rhsIdx (ix2 p c) ((contrEquiv1 dot_S10000x64_S64x1_S10000x1_1_0_0_1_n_n 64 rfl rfl).symm k) = ix2 k c := funext fun a => Fin.ext (by
    match a with
    | ⟨0, _⟩ => exact (dot_S10000x64_S64x1_S10000x1_1_0_0_1_n_n.rhsIdx_val_of_single rfl _ _).trans hk
    | ⟨1, _⟩ => exact output_rhs1 _ _)
  rw [el, er]

/-! ## The two biases, repeated over the rows -/

/-- `b1` given a leading unit axis and repeated over 10000 rows reads `b1[j]` at `(p, j)`. -/
theorem hidden_bias (b : FVec Ideal S64 .f32) (p : Fin 10000) (j : Fin 64) :
    broadcastTo S10000x64 (shapeCast S1x64 b shapeCasts_S64_S1x64) broadcasts_S1x64_S10000x64 (ix2 p j) = b (ix1 j) :=
  (broadcastTo_1b_ab_apply _ _ p j).trans (shapeCast_a_1a_apply b _ 0 j)

/-- `b2` given a leading unit axis and repeated over 10000 rows reads `b2[0]` everywhere. -/
theorem output_bias (b : FVec Ideal S1 .f32) (p : Fin 10000) (q : Fin 1) :
    broadcastTo S10000x1 (shapeCast S1x1 b shapeCasts_S1_S1x1) broadcasts_S1x1_S10000x1 (ix2 p q) = b (ix1 (0 : Fin 1)) :=
  (broadcastTo_1b_ab_apply _ _ p q).trans ((shapeCast_a_1a_apply b _ 0 q).trans (congrArg (fun z => b (ix1 z)) (Fin.eq_zero q)))

/-! ## The entrywise operations at an index -/

theorem tanh_at {s : Shape} (x : FVec Ideal s .f32) (i : s.Idx) : tanh x i = Ideal.tanh (x i) := rfl
theorem logistic_at {s : Shape} (x : FVec Ideal s .f32) (i : s.Idx) : logistic x i = Ideal.logistic (x i) := rfl

/-! ## The stored value -/

/-- THE BODY'S STORED VALUE at `(p, q)` is the dense layers' output for row `p` of the loaded block of aggregated features. -/
theorem stored_apply (v0 : Vec Ideal S10000x32 .f32) (v3 : Vec Ideal S32x64 .f32) (v7 : Vec Ideal S64 .f32)
    (v12 : Vec Ideal S64x1 .f32) (v17 : Vec Ideal S1 .f32) (p : Fin 10000) (q : Fin 1) :
    k0_pay1 (F := Ideal) v0 v3 v7 v12 v17 (ix2 p q) = Dense.nodeScore (fun k => v0 (ix2 p k)) v3 v7 v12 v17 := by
  obtain rfl : q = 0 := Fin.eq_zero q
  unfold k0_pay1
  simp only [shapeCast_self]
  rw [logistic_at, addf_apply, output_product, output_bias]
  unfold Dense.nodeScore
  refine congrArg Ideal.logistic (congrArg (· + v17 (ix1 (0 : Fin 1))) (Finset.sum_congr rfl fun j _ => ?_))
  rw [truncf_apply, tanh_at, addf_apply, hidden_product, hidden_bias, truncf_apply]
  simp only [truncf_apply]
  rfl

end Cert.KernelIdeal.Body

end
-- ==== Proof.KernelBlocks.lean ====
/-
  From what each grid point writes to the whole result array.

  The grid has ten points. Point `t` stages rows `10000·t … 10000·t + 9999` of the aggregated features, the whole of
  `W1ᵀ`, `b1`, `W2ᵀ` and `b2`, and writes back rows `10000·t … 10000·t + 9999` of the result. By the body's stored
  value (`Body.stored_apply`) entry `(p, 0)` of what point `t` writes is the dense layers' output for row `p` of its
  block, which is row `10000·t + p` of the array: so every point writes its block of ONE function of the region-entry
  arrays, `result`. Row `r` lies in the block of point `r / 10000`, so the ten blocks cover the array and the array ends
  holding `result`.
-/
import proofs.«122780_j91250875171104_2_alg».proof.Proof.Gen.KernelIdeal.Value
import proofs.«122780_j91250875171104_2_alg».proof.Proof.KernelPayload

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)

theorem offsets2 : (![0, 0] : Fin 2 → Nat) = fun _ => 0 := funext fun a => by fin_cases a <;> rfl
theorem offsets1 : (![0] : Fin 1 → Nat) = fun _ => 0 := funext fun a => by fin_cases a <;> rfl

/-- The printed index maps, decided over the ten points: the aggregated features and the result move with the point
    along the rows; the weights and biases stay at block 0. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-! ## A block read through its window, for any contents of the array -/

/-- Row `p` of point `t`'s block of the features array is row `10000·t + p` of the array. -/
theorem features_rows (A : S100000x32.Idx → EReal) (t : Fin cfg0.N) (p : Fin 10000) (k : Fin 32) (r : Fin 100000)
    (hr : r.val = t.val * 10000 + p.val) :
    ((cfg0.win 0).blk t).view.read (Elt Ideal) A (ix2 p k) = A (ix2 r k) := by
  have hi := block_indices t
  show A (((cfg0.win 0).blk t).view.emb (ix2 p k)) = A (ix2 r k)
  refine congrArg A (funext fun a => Fin.ext ?_)
  match a with
  | ⟨0, _⟩ => show win0_0.index t (0 : Fin 2) * 10000 + 1 * p.val = r.val; rw [hi.1, hr]; omega
  | ⟨1, _⟩ => show win0_0.index t (1 : Fin 2) * 32 + 1 * k.val = k.val; rw [hi.2.1]; omega

/-- Every point's block of the `[32, 64]` array is the whole array. -/
theorem whole_w1 (A : S32x64.Idx → EReal) (t : Fin cfg0.N) : ((cfg0.win 1).blk t).view.read (Elt Ideal) A = A := by
  have hi := block_indices t
  refine funext fun (z : S32x64.Idx) => ?_
  show A (((cfg0.win 1).blk t).view.emb z) = A z
  refine congrArg A (funext fun a => Fin.ext ?_)
  match a with
  | ⟨0, _⟩ => show win0_1.index t (0 : Fin 2) * 32 + 1 * (z 0).val = (z 0).val; rw [hi.2.2.1]; omega
  | ⟨1, _⟩ => show win0_1.index t (1 : Fin 2) * 64 + 1 * (z 1).val = (z 1).val; rw [hi.2.2.2.1]; omega

/-- Every point's block of the `[64]` array is the whole array. -/
theorem whole_b1 (A : S64.Idx → EReal) (t : Fin cfg0.N) : ((cfg0.win 2).blk t).view.read (Elt Ideal) A = A := by
  have hi := block_indices t
  refine funext fun (z : S64.Idx) => ?_
  show A (((cfg0.win 2).blk t).view.emb z) = A z
  refine congrArg A (funext fun a => Fin.ext ?_)
  match a with
  | ⟨0, _⟩ => show win0_2.index t (0 : Fin 1) * 64 + 1 * (z 0).val = (z 0).val; rw [hi.2.2.2.2.1]; omega

/-- Every point's block of the `[64, 1]` array is the whole array. -/
theorem whole_w2 (A : S64x1.Idx → EReal) (t : Fin cfg0.N) : ((cfg0.win 3).blk t).view.read (Elt Ideal) A = A := by
  have hi := block_indices t
  refine funext fun (z : S64x1.Idx) => ?_
  show A (((cfg0.win 3).blk t).view.emb z) = A z
  refine congrArg A (funext fun a => Fin.ext ?_)
  match a with
  | ⟨0, _⟩ => show win0_3.index t (0 : Fin 2) * 64 + 1 * (z 0).val = (z 0).val; rw [hi.2.2.2.2.2.1]; omega
  | ⟨1, _⟩ => show win0_3.index t (1 : Fin 2) * 1 + 1 * (z 1).val = (z 1).val; rw [hi.2.2.2.2.2.2.1]; omega

/-- Every point's block of the `[1]` array is the whole array. -/
theorem whole_b2 (A : S1.Idx → EReal) (t : Fin cfg0.N) : ((cfg0.win 4).blk t).view.read (Elt Ideal) A = A := by
  have hi := block_indices t
  refine funext fun (z : S1.Idx) => ?_
  show A (((cfg0.win 4).blk t).view.emb z) = A z
  refine congrArg A (funext fun a => Fin.ext ?_)
  match a with
  | ⟨0, _⟩ => show win0_4.index t (0 : Fin 1) * 1 + 1 * (z 0).val = (z 0).val; rw [hi.2.2.2.2.2.2.2.1]; omega

/-- Entry `(p, q)` of point `t`'s block of the result array is entry `(10000·t + p, q)` of the array. -/
theorem result_rows (t : Fin cfg0.N) (p : Fin 10000) (q : Fin 1) (r : Fin 100000) (hr : r.val = t.val * 10000 + p.val) :
    ((cfg0.win 5).blk t).view.emb (ix2 p q) = (ix2 r q : S100000x1.Idx) := by
  have hi := block_indices t
  refine funext fun a => Fin.ext ?_
  match a with
  | ⟨0, _⟩ => show win0_5.index t (0 : Fin 2) * 10000 + 1 * p.val = r.val; rw [hi.2.2.2.2.2.2.2.2.1, hr]; omega
  | ⟨1, _⟩ => show win0_5.index t (1 : Fin 2) * 1 + 1 * q.val = q.val; rw [hi.2.2.2.2.2.2.2.2.2]; omega

/-- Two contents agree as point `t`'s written block as soon as entry `(p, q)` of the one is entry `(10000·t + p, q)` of the other. -/
theorem written_block_ext (t : Fin cfg0.N) (X : S10000x1.Idx → EReal) (R : S100000x1.Idx → EReal)
    (h : ∀ (p : Fin 10000) (q : Fin 1) (r : Fin 100000), r.val = t.val * 10000 + p.val → X (ix2 p q) = R (ix2 r q)) :
    (cfg0.win 5).cut (grid0.coords t) X = ((cfg0.win 5).blk t).view.read (Elt Ideal) R := by
  refine funext fun (y : S10000x1.Idx) => ?_
  obtain ⟨p, q, rfl⟩ : ∃ (p : Fin 10000) (q : Fin 1), y = ix2 p q := ⟨y 0, y 1, eq_ix2 y⟩
  have hr : t.val * 10000 + p.val < 100000 := by
    have h1 : t.val < cfg0.N := t.isLt
    have hN : cfg0.N = 10 := N_0
    have h2 : p.val < 10000 := p.isLt
    omega
  show X (ix2 p q) = R (((cfg0.win 5).blk t).view.emb (ix2 p q))
  rw [result_rows t p q ⟨t.val * 10000 + p.val, hr⟩ rfl]
  exact h p q _ rfl

/-! ## The blocks a point stages, of the arrays the region finds -/

variable (m : (ℓ : Loc nD τ sig) → Buf (Elt Ideal) ℓ)

/-- THE RESULT ARRAY as one function of the arrays the region finds: the dense layers of the aggregated features. -/
def result (c : Dev nD) : S100000x1.Idx → EReal :=
  Dense.layer (n := 100000) (V m c main_v42 : S100000x32.Idx → EReal) (V m c main_v43 : S32x64.Idx → EReal)
    (V m c main_arg4 : S64.Idx → EReal) (V m c main_v44 : S64x1.Idx → EReal) (V m c main_arg6 : S1.Idx → EReal)

theorem features_block (c : Dev nD) (t : Fin cfg0.N) (p : Fin 10000) (k : Fin 32) (r : Fin 100000)
    (hr : r.val = t.val * 10000 + p.val) :
    (iblk m c 0 t : Vec Ideal S10000x32 .f32) (ix2 p k) = (V m c main_v42 : S100000x32.Idx → EReal) (ix2 r k) := by
  unfold iblk
  exact features_rows (V m c (Pipeline.arrRef spec0 0)) t p k r hr

theorem w1_block (c : Dev nD) (t : Fin cfg0.N) :
    (iblk m c 1 t : Vec Ideal S32x64 .f32) = (V m c main_v43 : S32x64.Idx → EReal) := by
  unfold iblk
  exact whole_w1 (V m c (Pipeline.arrRef spec0 1)) t

theorem b1_block (c : Dev nD) (t : Fin cfg0.N) :
    (iblk m c 2 t : Vec Ideal S64 .f32) = (V m c main_arg4 : S64.Idx → EReal) := by
  unfold iblk
  exact whole_b1 (V m c (Pipeline.arrRef spec0 2)) t

theorem w2_block (c : Dev nD) (t : Fin cfg0.N) :
    (iblk m c 3 t : Vec Ideal S64x1 .f32) = (V m c main_v44 : S64x1.Idx → EReal) := by
  unfold iblk
  exact whole_w2 (V m c (Pipeline.arrRef spec0 3)) t

theorem b2_block (c : Dev nD) (t : Fin cfg0.N) :
    (iblk m c 4 t : Vec Ideal S1 .f32) = (V m c main_arg6 : S1.Idx → EReal) := by
  unfold iblk
  exact whole_b2 (V m c (Pipeline.arrRef spec0 4)) t

/-! ## What a point writes back -/

/-- WHAT POINT `t` WRITES BACK is its block of `result`. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero offsets2]
  simp only [View.ld_unit_zero (S := S10000x32) offsets2, View.ld_unit_zero (S := S32x64) offsets2,
    View.ld_unit_zero (S := S64) offsets1, View.ld_unit_zero (S := S64x1) offsets2, View.ld_unit_zero (S := S1) offsets1]
  refine written_block_ext t (k0_pay1 (iblk m c 0 t) (iblk m c 1 t) (iblk m c 2 t) (iblk m c 3 t) (iblk m c 4 t)) (result m c)
    (fun p q r hr => ?_)
  unfold result
  rw [Dense.layer_apply]
  refine (Body.stored_apply (iblk m c 0 t) (iblk m c 1 t) (iblk m c 2 t) (iblk m c 3 t) (iblk m c 4 t) p q).trans ?_
  rw [w1_block m c t, b1_block m c t, w2_block m c t, b2_block m c t]
  refine congrArg (fun row => Dense.nodeScore row (V m c main_v43 : S32x64.Idx → EReal) (V m c main_arg4 : S64.Idx → EReal)
    (V m c main_v44 : S64x1.Idx → EReal) (V m c main_arg6 : S1.Idx → EReal)) (funext fun k => ?_)
  exact features_block m c t p k r hr

/-! ## The blocks cover the array -/

/-- An index of the array is in point `t`'s block iff each coordinate is in the block's range on its axis. -/
theorem mem_block (t : Fin cfg0.N) (i : S100000x1.Idx) :
    i ∈ ((cfg0.win 5).blk t).view.set ↔ ∀ a : Fin 2, win0_5.index t a * S10000x1.size a ≤ (i a).val ∧ (i a).val < win0_5.index t a * S10000x1.size a + S10000x1.size a := by
  show i ∈ ((View.whole main_v45).slice (win0_5.rect t)).set ↔ _
  rw [View.set_slice_whole, Rect.mem_set_unit]
  exact Iff.rfl

/-- Row `r` of the result is written by point `r / 10000`. -/
theorem covered (i : S100000x1.Idx) :
    ∃ t : Fin cfg0.N, (cfg0.win 5).flush t = true ∧ i ∈ ((cfg0.win 5).blk t).view.set := by
  have hN : cfg0.N = 10 := N_0
  have h0 : (i 0).val < 100000 := (i 0).isLt
  have h1 : (i 1).val < 1 := (i 1).isLt
  have hq : (i 0).val / 10000 < cfg0.N := by rw [hN]; omega
  have hi := block_indices ⟨(i 0).val / 10000, hq⟩
  have e0 : win0_5.index ⟨(i 0).val / 10000, hq⟩ (0 : Fin 2) = (i 0).val / 10000 := hi.2.2.2.2.2.2.2.2.1
  have e1 : win0_5.index ⟨(i 0).val / 10000, hq⟩ (1 : Fin 2) = 0 := hi.2.2.2.2.2.2.2.2.2
  refine ⟨⟨(i 0).val / 10000, hq⟩, flush0_5 _, ?_⟩
  rw [mem_block]
  intro a
  match a with
  | ⟨0, _⟩ =>
    show win0_5.index ⟨(i 0).val / 10000, hq⟩ (0 : Fin 2) * 10000 ≤ (i 0).val
      ∧ (i 0).val < win0_5.index ⟨(i 0).val / 10000, hq⟩ (0 : Fin 2) * 10000 + 10000
    rw [e0]; omega
  | ⟨1, _⟩ =>
    show win0_5.index ⟨(i 0).val / 10000, hq⟩ (1 : Fin 2) * 1 ≤ (i 1).val
      ∧ (i 1).val < win0_5.index ⟨(i 0).val / 10000, hq⟩ (1 : Fin 2) * 1 + 1
    rw [e1]; omega

/-- THE RESULT ARRAY after the run is `result` of the arrays the region found. -/
theorem final (c : Dev nD) : (dats m 0 c).arrAt 5 cfg0.N = result m c :=
  (dats m 0 c).arrAt_eq_of_cover 5 (result m c) (fun t _ => flushed_eq m c t) (covered)

end Cert.KernelIdeal.Blocks

end
-- ==== Proof.KernelEntry.lean ====
/-
  What the kernel's region finds in the arrays it stages.

  Before the region the kernel's program runs, on the host, the graph aggregation — the same operations, in the same
  order, as the reference's: the self loops appended, the degrees by a scatter-add of ones, their inverse square roots
  gathered at both ends of every edge, the messages `edge weight · norm · x[row]`, and their scatter-add at the target
  nodes — and the two transposes of the weights. So on entry the aggregated features are the reference's stage 42 of
  the kernel's own arguments, and the two weight windows hold the reference's stages 43 and 49 (the transposes); the two
  biases are arguments no host operation writes. The aggregation is carried as that one function of the three arguments
  it reads and is never opened.
-/
import proofs.«122780_j91250875171104_2_alg».proof.Proof.Gen.KernelIdeal.Frame
import proofs.«122780_j91250875171104_2_alg».proof.Proof.Gen.ReferenceIdeal.Read
import Idealize.ShloMosaic.Lib.StableHlo.Run

noncomputable section

namespace Cert.KernelIdeal.Entry

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

set_option maxRecDepth 8192 in
set_option maxHeartbeats 8000000 in
/-- The aggregated features on entry: the graph aggregation (the reference's stage 42) of the node features, the edge list and the edge weights. -/
theorem aggregated (c : Dev nD) :
    (V m c main_v42 : S100000x32.Idx → EReal)
      = Cert.ReferenceIdeal.Read.val_main_v42 (F := Ideal) (m ((c : Thread nD τ).loc main_arg0)) (m ((c : Thread nD τ).loc main_arg1)) (m ((c : Thread nD τ).loc main_arg2)) := by
  dsimp only [V, hostOps0]; after_results_simp; rfl

set_option maxRecDepth 8192 in
set_option maxHeartbeats 8000000 in
/-- `W1ᵀ` on entry: the transpose of the first weight matrix. -/
theorem w1_transposed (c : Dev nD) :
    (V m c main_v43 : S32x64.Idx → EReal) = Cert.ReferenceIdeal.Read.val_main_v43 (F := Ideal) (m ((c : Thread nD τ).loc main_arg3)) := by
  dsimp only [V, hostOps0]; after_results_simp; rfl

set_option maxRecDepth 8192 in
set_option maxHeartbeats 8000000 in
/-- `W2ᵀ` on entry: the transpose of the second weight matrix. -/
theorem w2_transposed (c : Dev nD) :
    (V m c main_v44 : S64x1.Idx → EReal) = Cert.ReferenceIdeal.Read.val_main_v49 (F := Ideal) (m ((c : Thread nD τ).loc main_arg5)) := by
  dsimp only [V, hostOps0]; after_results_simp; rfl

end Cert.KernelIdeal.Entry

end
-- ==== Proof.lean ====
/-
  A graph-convolution layer followed by two dense layers: the kernel against its reference, over the extended reals.

  Both programs first aggregate the node features over the graph on the host — self loops appended, degrees by a
  scatter-add of ones, inverse square roots of the degrees gathered at both ends of every edge, the messages
  `edge weight · norm · x[row]` scatter-added at the target nodes — by the same operations in the same order: one
  function `A` of the node features, the edge list and the edge weights (the reference's stage 42), which is never
  opened. Then each computes, for every node `r`,
      σ( Σ_j tanh( Σ_k A[r, k] · W1[j, k] + b1[j] ) · W2[0, j] + b2[0] ),     σ(x) = 1 / (1 + e^{-x}),
  the reference with two host matrix products against the transposed weights and σ spelt out as negate, exponential,
  add and divide; the kernel on ten blocks of 10000 rows, with two matrix-unit products into zero accumulators (the
  roundings to bf16 on the way in are the identity on the extended reals) and σ as one operation. The two agree by
  the definitions alone: a product into a zero accumulator is the sum, and σ is defined on the extended reals as
  that quotient. No law that needs finite entries is used, so the precondition is never opened.

  `Dense` states the function; `ReferenceIdeal.Layer` reads it off the reference's stages; `KernelIdeal.Body` reads it
  off the kernel body's stored value; `KernelIdeal.Blocks` goes from the ten blocks to the whole array;
  `KernelIdeal.Entry` says what the arrays hold when the region is entered. The kernel's idealization rewrote no
  operation, so there is nothing to preserve.
-/
import proofs.«122780_j91250875171104_2_alg».proof.Defs
import proofs.«122780_j91250875171104_2_alg».proof.Proof.Gen.Kernel
import proofs.«122780_j91250875171104_2_alg».proof.Proof.Gen.Kernel.Skeleton
import proofs.«122780_j91250875171104_2_alg».proof.Proof.Gen.Kernel.Launch
import proofs.«122780_j91250875171104_2_alg».proof.Proof.Gen.Kernel.Points
import proofs.«122780_j91250875171104_2_alg».proof.Proof.Gen.Kernel.Frame
import proofs.«122780_j91250875171104_2_alg».proof.Proof.Gen.KernelIdeal
import proofs.«122780_j91250875171104_2_alg».proof.Proof.Gen.KernelIdeal.Skeleton
import proofs.«122780_j91250875171104_2_alg».proof.Proof.Gen.KernelIdeal.Launch
import proofs.«122780_j91250875171104_2_alg».proof.Proof.Gen.KernelIdeal.Points
import proofs.«122780_j91250875171104_2_alg».proof.Proof.Gen.KernelIdeal.Frame
import proofs.«122780_j91250875171104_2_alg».proof.Proof.Gen.ReferenceIdeal
import proofs.«122780_j91250875171104_2_alg».proof.Proof.Gen.Pre_finite_inputs
import proofs.«122780_j91250875171104_2_alg».proof.Proof.Gen.KernelIdeal.Value
import proofs.«122780_j91250875171104_2_alg».proof.Proof.Gen.ReferenceIdeal.Run
import proofs.«122780_j91250875171104_2_alg».proof.Proof.Gen.ReferenceIdeal.Read
import proofs.«122780_j91250875171104_2_alg».proof.Proof.ReferenceLayer
import proofs.«122780_j91250875171104_2_alg».proof.Proof.KernelBlocks
import proofs.«122780_j91250875171104_2_alg».proof.Proof.KernelEntry
import Idealize.ShloMosaic.Adequacy
import Idealize.ShloMosaic.Init

noncomputable section

namespace Cert.Proof

open Idealize.ShloMosaic Idealize.ShloMosaic.TcCoe Idealize.SL.Sem

/-- THE COMMON RESULT, as a function of the kernel's arguments: the dense layers of the graph aggregation of the node
    features, edge list and edge weights, with the transposed weights and the two biases. -/
def value (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v45) :=
  Dense.layer (n := 100000)
    (Cert.ReferenceIdeal.Read.val_main_v42 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)))
    (Cert.ReferenceIdeal.Read.val_main_v43 (F := Ideal) (m ((c.tc : Thread Cert.KernelIdeal.nD Cert.KernelIdeal.τ).loc Cert.KernelIdeal.main_arg3)))
    (m ((c.tc : Thread Cert.KernelIdeal.nD Cert.KernelIdeal.τ).loc Cert.KernelIdeal.main_arg4))
    (Cert.ReferenceIdeal.Read.val_main_v49 (F := Ideal) (m ((c.tc : Thread Cert.KernelIdeal.nD Cert.KernelIdeal.τ).loc Cert.KernelIdeal.main_arg5)))
    (m ((c.tc : Thread Cert.KernelIdeal.nD Cert.KernelIdeal.τ).loc Cert.KernelIdeal.main_arg6))

/-- The kernel's result array after the run is the common result: the ten blocks make up `Blocks.result` of the arrays
    the region found, and those are the aggregation, the two transposes and the two biases of the arguments. -/
theorem kernel_result (m : (ℓ : Loc Cert.KernelIdeal.nD Cert.KernelIdeal.τ Cert.KernelIdeal.sig) → Buf (Elt Ideal) ℓ) (c : Dev Cert.KernelIdeal.nD) :
    (Cert.KernelIdeal.Gen.dats m 0 c).arrAt 5 Cert.KernelIdeal.cfg0.N = value m c := by
  rw [Cert.KernelIdeal.Blocks.final]
  unfold Cert.KernelIdeal.Blocks.result value
  rw [Cert.KernelIdeal.Entry.aggregated m c, Cert.KernelIdeal.Entry.w1_transposed m c, Cert.KernelIdeal.Entry.w2_transposed m c,
    Cert.KernelIdeal.Gen.V_main_arg4 m c, Cert.KernelIdeal.Gen.V_main_arg6 m c]

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the common result. -/
theorem algebraic : Cert.algebraic_KernelIdeal_ReferenceIdeal := by
  intro m ρ m' ρ' _ hagree
  refine ⟨fun c => value m c, ?_, ?_⟩
  · exact (θ_run Cert.KernelIdeal.defs _ _).mono (fun r h c => ⟨(h c).1.trans (kernel_result m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v59_eq, Cert.ReferenceIdeal.Layer.result_eq_layer,
      (hagree c).1, (hagree c).2.1, (hagree c).2.2.1, (hagree c).2.2.2.1, (hagree c).2.2.2.2.1, (hagree c).2.2.2.2.2.1,
      (hagree c).2.2.2.2.2.2]
    rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
